-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S1x128 : Shape := ⟨2, ![1, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1x128 : S_.BroadcastsInDim S1x128 (![] : Fin 0 → Fin S1x128.rank)
  reducesTo_S1x128_S_d0_1 : S1x128.ReducesTo [0, 1] S_

variable [Facts]

def fn {F : FTy → Type} [FloatOps F] (main_arg0 : FVec F S10000x128 .f32) (main_arg1 : FVec F S10000x10000 .f32) (main_arg2 : FVec F S1x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  main_v13
-- ==== Kernel.lean ====
abbrev S10000x128 : Shape := ⟨2, ![10000, 128]⟩
abbrev S10000x10000 : Shape := ⟨2, ![10000, 10000]⟩
abbrev S1x128 : Shape := ⟨2, ![1, 128]⟩
abbrev S120x10000 : Shape := ⟨2, ![120, 10000]⟩
abbrev S240x128 : Shape := ⟨2, ![240, 128]⟩
abbrev S120x128 : Shape := ⟨2, ![120, 128]⟩

abbrev nBuf : Space → Nat
  | .hbm => 4
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S1x128, .f32⟩
  | .hbm, ⟨3, _⟩ => ⟨S10000x128, .f32⟩
  | .local _ .vmem, ⟨0, _⟩ => ⟨S120x10000, .f32⟩
  | .local _ .vmem, ⟨1, _⟩ => ⟨S120x10000, .f32⟩
  | .local _ .vmem, ⟨2, _⟩ => ⟨S120x10000, .f32⟩
  | .local _ .vmem, ⟨3, _⟩ => ⟨S120x10000, .f32⟩
  | .local _ .vmem, ⟨4, _⟩ => ⟨S10000x128, .f32⟩
  | .local _ .vmem, ⟨5, _⟩ => ⟨S1x128, .f32⟩
  | .local _ .vmem, ⟨6, _⟩ => ⟨S240x128, .f32⟩
  | .local _ .vmem, ⟨7, _⟩ => ⟨S240x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![42], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S120x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S120x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S240x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x128_S1x128_0_0 : ∀ a, (![0, 0] : Fin 2 → Nat) a + S1x128.size a ≤ S1x128.size a
  h_S1x128 : 0 < S1x128.numel
  inb_S120x10000_S120x10000_0_0 : ∀ a, (![0, 0] : Fin 2 → Nat) a + S120x10000.size a ≤ S120x10000.size a
  h_S120x10000 : 0 < S120x10000.numel
  inb_S10000x128_S10000x128_0_0 : ∀ a, (![0, 0] : Fin 2 → Nat) a + S10000x128.size a ≤ S10000x128.size a
  h_S10000x128 : 0 < S10000x128.numel
  broadcasts_S1x128_S120x128 : S1x128.Broadcasts S120x128
  inb_S240x128_S120x128_0_0 : ∀ a, (![0, 0] : Fin 2 → Nat) a + S120x128.size a ≤ S240x128.size a
  h_S120x128 : 0 < S120x128.numel
  inb_S240x128_S120x128_120_0 : ∀ a, (![120, 0] : Fin 2 → Nat) a + S120x128.size a ≤ S240x128.size a
  dot_S120x10000_S10000x128_S120x128_1_0_0_1_n_n_wf : DotDims.WF S120x10000 S10000x128 S120x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S120x10000.size a < S10000x10000.size a
  hwx0_0 : ∀ i : grid0.Coords, EltTy.bits .f32 = 32 ∨ (Rect.unit (s := S10000x10000) (fun a => cc0_transform_0 i a * S120x10000.size a) (fun a => (Pipeline.Clip.of (cc0_transform_0 i a) (S120x10000.size a) (S10000x10000.size a)).extent (S120x10000.size a)) fun a => Pipeline.Clip.inb (Pipeline.Clip.ok_of (hstart0_0 i a))).WholeWords (EltTy.packing .f32)
  hwxs0_0 : ∀ i : grid0.Coords, EltTy.bits .f32 = 32 ∨ (Rect.unit (s := S120x10000) (fun _ => 0) (fun a => (Pipeline.Clip.of (cc0_transform_0 i a) (S120x10000.size a) (S10000x10000.size a)).extent (S120x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S120x10000.size a < S10000x10000.size a
  hwx0_1 : ∀ i : grid0.Coords, EltTy.bits .f32 = 32 ∨ (Rect.unit (s := S10000x10000) (fun a => cc0_transform_1 i a * S120x10000.size a) (fun a => (Pipeline.Clip.of (cc0_transform_1 i a) (S120x10000.size a) (S10000x10000.size a)).extent (S120x10000.size a)) fun a => Pipeline.Clip.inb (Pipeline.Clip.ok_of (hstart0_1 i a))).WholeWords (EltTy.packing .f32)
  hwxs0_1 : ∀ i : grid0.Coords, EltTy.bits .f32 = 32 ∨ (Rect.unit (s := S120x10000) (fun _ => 0) (fun a => (Pipeline.Clip.of (cc0_transform_1 i a) (S120x10000.size a) (S10000x10000.size a)).extent (S120x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S240x128.size a < S10000x128.size a
  hwx0_4 : ∀ i : grid0.Coords, EltTy.bits .f32 = 32 ∨ (Rect.unit (s := S10000x128) (fun a => cc0_transform_4 i a * S240x128.size a) (fun a => (Pipeline.Clip.of (cc0_transform_4 i a) (S240x128.size a) (S10000x128.size a)).extent (S240x128.size a)) fun a => Pipeline.Clip.inb (Pipeline.Clip.ok_of (hstart0_4 i a))).WholeWords (EltTy.packing .f32)
  hwxs0_4 : ∀ i : grid0.Coords, EltTy.bits .f32 = 32 ∨ (Rect.unit (s := S240x128) (fun _ => 0) (fun a => (Pipeline.Clip.of (cc0_transform_4 i a) (S240x128.size a) (S10000x128.size a)).extent (S240x128.size a)) fun a => (Nat.zero_add _).trans_le (Pipeline.Clip.extent_le (Pipeline.Clip.ok_of (hstart0_4 i a)))).WholeWords (EltTy.packing .f32)

variable [Facts₀]

def dot_S120x10000_S10000x128_S120x128_1_0_0_1_n_n : DotDims S120x10000 S10000x128 S120x128 where
  lhsContracting := [1]
  rhsContracting := [0]
  lhsNonContracting := [0]
  rhsNonContracting := [1]
  lhsBatch := []
  rhsBatch := []
  wf := dot_S120x10000_S10000x128_S120x128_1_0_0_1_n_n_wf

abbrev win0_0 : Pipeline.Window sig grid0 :=
  Pipeline.Window.ofSpecClip (Memref.whole main_arg1) S120x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S120x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v0) S240x128.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S1x128 : Shape := ⟨2, ![1, 128]⟩

abbrev nBuf : Space → Nat
  | .hbm => 6
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S1x128, .f32⟩
  | .hbm, ⟨3, _⟩ => ⟨S10000x128, .f32⟩
  | .hbm, ⟨4, _⟩ => ⟨S10000x128, .f32⟩
  | .hbm, ⟨5, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KernelFrame.lean ====
/-
  The frame of the word-level program: the run terminates without fault and the three argument arrays end holding
  what they held.

  The two clipped input windows read the same array (the matrix), and their last blocks overhang it: the rows of a
  staged slab past the array's end hold words nothing names, the body's matrix product reads them, and so what the
  body leaves in the output's staging buffer cannot be named at the word level. The frame does not need it: the proof
  data here constrain nothing of what the body leaves in any staging buffer (the relation that always holds), so the
  body's obligation is only that it runs without fault from whole staging buffers at any contents and hands them back
  at some contents. An input window's array is never written back, so it ends at its entry contents; the matrix,
  read through two windows, is held by each at one half of the full share.
-/
import proofs.«126545_g68573447848481_cont_sun_c4_810_22_alg».proof.Defs
import proofs.«126545_g68573447848481_cont_sun_c4_810_22_alg».proof.Proof.Gen.Kernel
import proofs.«126545_g68573447848481_cont_sun_c4_810_22_alg».proof.Proof.Gen.Kernel.Skeleton
import proofs.«126545_g68573447848481_cont_sun_c4_810_22_alg».proof.Proof.Gen.Kernel.Launch
import proofs.«126545_g68573447848481_cont_sun_c4_810_22_alg».proof.Proof.Gen.Kernel.Points
import proofs.«126545_g68573447848481_cont_sun_c4_810_22_alg».proof.Proof.Gen.Pre_finite_inputs
import Idealize.ShloMosaic.Lib.Pipeline.Kit
import Idealize.ShloMosaic.Lib.Tactic

noncomputable section

namespace Cert.Kernel.FrameProof

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf kernel pipe)

variable {F : FTy → Type} [FloatOps F]

local notation "𝕄" => MT nD τ sig Unit (Elt F) ℕ (UR sig nD τ) ℕ

/-- The kernel's variants: none. -/
abbrev 𝒱₀ : Variants := Variants.none

/-! ## The kernel body runs from any contents -/

/-- The body on whole staging memrefs `a1`, `a2` (the two slabs of the matrix), `a3` (the layer), `a4` (the scale row)
    and `a5` (the output block), each held whole at SOME contents: the loads read what is there, the two stores write
    the two halves of `a5`, and every buffer comes back whole at some contents. Nothing is said of the contents: the
    two products are never opened. -/
theorem sound_body (c : Dev nD) (E : Set ℕ) (i : grid0.Coords)
    (a1 : Memref sig .tc .vmem S120x10000 .f32) (h1 : a1.IsWhole)
    (a2 : Memref sig .tc .vmem S120x10000 .f32) (h2 : a2.IsWhole)
    (a3 : Memref sig .tc .vmem S10000x128 .f32) (h3 : a3.IsWhole)
    (a4 : Memref sig .tc .vmem S1x128 .f32) (h4 : a4.IsWhole)
    (a5 : Memref sig .tc .vmem S240x128 .f32) (h5 : a5.IsWhole)
    (K : PUnit → sProp 𝕄) :
    iprop(((∃ X, owns (c : Thread nD τ) a1 fullShare X) ∗ (∃ X, owns (c : Thread nD τ) a2 fullShare X)
            ∗ (∃ X, owns (c : Thread nD τ) a3 fullShare X) ∗ (∃ X, owns (c : Thread nD τ) a4 fullShare X)
            ∗ (∃ X, owns (c : Thread nD τ) a5 fullShare X))
          ∗ (iprop((∃ X, owns (c : Thread nD τ) a1 fullShare X) ∗ (∃ X, owns (c : Thread nD τ) a2 fullShare X)
            ∗ (∃ X, owns (c : Thread nD τ) a3 fullShare X) ∗ (∃ X, owns (c : Thread nD τ) a4 fullShare X)
            ∗ (∃ X, owns (c : Thread nD τ) a5 fullShare X)) -∗ K ⟨⟩))
      ⊢ wp frame (wpE (defs₀ (F := F)) 𝒱₀ c none) E (cc0__gcn_body i a1 h1 a2 h2 a3 h3 a4 h4 a5 h5) K := by
  simp only [cc0__gcn_body_eq_skeleton]; unfold cc0__gcn_body_skel
  unfold owns
  simp only [Prog.lift, Prog.bind_op, Prog.bind_ret]
  iintro ⟨⟨⟨%X1, %g1, %e1, H1⟩, ⟨%X2, %g2, %e2, H2⟩, ⟨%X3, %g3, %e3, H3⟩, ⟨%X4, %g4, %e4, H4⟩, ⟨%X5, %g5, %e5, H5⟩⟩, Hk⟩
  sl_steps
  iapply Hk
  isplitl [H1]
  · iexists _, g1; isplitr; · ipureintro; rfl
    iexact H1
  isplitl [H2]
  · iexists _, g2; isplitr; · ipureintro; rfl
    iexact H2
  isplitl [H3]
  · iexists _, g3; isplitr; · ipureintro; rfl
    iexact H3
  isplitl [H4]
  · iexists _, g4; isplitr; · ipureintro; rfl
    iexact H4
  · iexists _, _; isplitr
    swap
    · iexact H5
    · ipureintro; rfl

/-! ## The proof data -/

variable (m : (ℓ : Loc nD τ sig) → Buf (Elt F) ℓ) (ρ : Dev nD → PrngReg)

/-- The proof data on device `c`'s TensorCore: the arrays at their launch contents; of what the body leaves in a
    staging buffer nothing is said; no invariant; nothing owed; the matrix, which windows 0 and 1 both read, held by
    the one at the left half of the full share and by the other at the right half, the other two inputs whole. -/
def rdat (c : Dev nD) : RDat τ (Elt F) Unit ℕ (UR sig nD τ) ℕ cfg0 c where
  A w := m ((cfg0.win w).arr.view.loc (c.tc : Thread nD τ))
  after _ _ _ _ := True
  Φ _ := iprop(emp)
  q := fun (w : Fin 5) => match w with
    | 0 => fullShare.left
    | 1 => fullShare.right
    | 2 => fullShare
    | 3 => fullShare
    | 4 => fullShare
    | ⟨_ + 5, h⟩ => absurd h (Nat.not_lt.2 (Nat.le_add_left _ _))
  owed _ := 0

/-- The body obligation of these data: whatever the five current staging buffers hold, the body runs and hands them
    back at some contents. -/
theorem body_obligation (c : Dev nD) : (rdat m c).BodyObligation (defs₀ (F := F)) 𝒱₀ () Set.univ := fun t Y _ => by
  rw [bigSep_W0, bigSep_W0]
  rw [show (rdat m c).Φ t.succ = (rdat m c).Φ t.castSucc from rfl,
    show (rdat m c).owesAt () t.succ = (rdat m c).owesAt () t.castSucc from rfl]
  iintro ⟨HΦ, Ho, H0, H1, H2, H3, H4⟩
  iapply (sound_body (F := F) c Set.univ (grid0.coords t)
    (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4)) _)
  isplitl [H0 H1 H2 H3 H4]
  · isplitl [H0]
    · iexists _; iexact H0
    isplitl [H1]
    · iexists _; iexact H1
    isplitl [H2]
    · iexists _; iexact H2
    isplitl [H3]
    · iexists _; iexact H3
    · iexists _; iexact H4
  iintro ⟨⟨%X0, H0⟩, ⟨%X1, H1⟩, ⟨%X2, H2⟩, ⟨%X3, H3⟩, ⟨%X4, H4⟩⟩
  isplitl [HΦ]; · iexact HΦ
  isplitl [Ho]; · iexact Ho
  isplitl [H0]
  · iexists X0; isplitr; · ipureintro; trivial
    iexact H0
  isplitl [H1]
  · iexists X1; isplitr; · ipureintro; trivial
    iexact H1
  isplitl [H2]
  · iexists X2; isplitr; · ipureintro; trivial
    iexact H2
  isplitl [H3]
  · iexists X3; isplitr; · ipureintro; trivial
    iexact H3
  · iexists X4; isplitr; · ipureintro; trivial
    iexact H4

/-! ## The arrays at entry: the matrix split between its two windows -/

/-- A whole memref's points-to over its own element set is the points-to of its whole buffer. -/
theorem arr_pt (c : Dev nD) {sp : Space} {sh : Shape} {e : EltTy} (a : Memref sig .tc sp sh e) (ha : a.IsWhole)
    (q : PosShare TreeShare) (f : Buf (Elt F) (a.view.loc (c.tc : Thread nD τ))) :
    (a.view.loc (c.tc : Thread nD τ) ↦[a.view.set]{q} f : sProp 𝕄) = (a.view.loc (c.tc : Thread nD τ) ↦{q} f) := by
  rw [ha.set_eq_univ]

/-- The four distinct buffers behind the five windows' arrays, each whole at the full share at its launch contents,
    make the proof data's arrays at entry: the matrix's points-to is split along the share into its two halves, one
    for each of the two windows that read it; the layer, the scale row and the result go to their windows whole. -/
theorem arrays_split (c : Dev nD) :
    (Pipeline.arrBufs (Ix := Unit) (Name := ℕ) (U := UR sig nD τ) (Lvl := ℕ) spec0 c (fun b => m ((c.tc : Thread nD τ).loc b)) : sProp 𝕄)
      ⊢ (rdat m c).arrays (rdat m c).A := by
  unfold Pipeline.arrBufs RDat.arrays
  rw [bigSep_W0,
    bigSep_eq_bigSepL_of_eq [main_arg1, main_arg0, main_arg2, main_v0] (by decide) (by decide),
    arr_pt c (cfg0.win 0).arr (arr_whole0 0), arr_pt c (cfg0.win 1).arr (arr_whole0 1),
    arr_pt c (cfg0.win 2).arr (arr_whole0 2), arr_pt c (cfg0.win 3).arr (arr_whole0 3),
    arr_pt c (cfg0.win 4).arr (arr_whole0 4)]
  show iprop((((c.tc : Thread nD τ).loc main_arg1) ↦{fullShare} m ((c.tc : Thread nD τ).loc main_arg1))
        ∗ (((c.tc : Thread nD τ).loc main_arg0) ↦{fullShare} m ((c.tc : Thread nD τ).loc main_arg0))
        ∗ (((c.tc : Thread nD τ).loc main_arg2) ↦{fullShare} m ((c.tc : Thread nD τ).loc main_arg2))
        ∗ (((c.tc : Thread nD τ).loc main_v0) ↦{fullShare} m ((c.tc : Thread nD τ).loc main_v0)))
      ⊢ (iprop((((c.tc : Thread nD τ).loc main_arg1) ↦{fullShare.left} m ((c.tc : Thread nD τ).loc main_arg1))
        ∗ (((c.tc : Thread nD τ).loc main_arg1) ↦{fullShare.right} m ((c.tc : Thread nD τ).loc main_arg1))
        ∗ (((c.tc : Thread nD τ).loc main_arg0) ↦{fullShare} m ((c.tc : Thread nD τ).loc main_arg0))
        ∗ (((c.tc : Thread nD τ).loc main_arg2) ↦{fullShare} m ((c.tc : Thread nD τ).loc main_arg2))
        ∗ (((c.tc : Thread nD τ).loc main_v0) ↦{fullShare} m ((c.tc : Thread nD τ).loc main_v0))) : sProp 𝕄)
  iintro ⟨Hm, Hx, Hw, Hv⟩
  ihave Hm := (pointsTo_share (PosShare.mem_left_op_right fullShare)).1 $$ Hm
  icases Hm with ⟨Hl, Hr⟩
  isplitl [Hl]; · iexact Hl
  isplitl [Hr]; · iexact Hr
  isplitl [Hx]; · iexact Hx
  isplitl [Hw]; · iexact Hw
  iexact Hv

/-! ## The launch, by the library -/

/-- At the compiled mesh, for any float values, from any memory whose semaphore counters are zero: every weakly fair
    execution of @main on the TensorCores terminates, nothing faulting, and the three argument arrays end holding what
    they held. Each is an input window's array, which no write-back touches: what it may hold after the last point is
    its entry contents. -/
theorem frame_run : θ_run (defs (F := F)) (onTc (τ := τ) (main (F := F))) ⟨m, fun _ => 0, ρ⟩
    (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.RDat.θ_run_region_pf (pcfgs (F := F)) (fun p => (cfgs p).toPCfg_adm) (fun _ c => rdat m c) () cellOf_inj (0 : Fin 1)
    winFacts₀0 (Pipeline.OwnSemFacts.none spec0) (Pipeline.PreFacts.none spec0) emb₁ defs₀ 𝒱₀ m ρ main
    (hbody := body_obligation m)
    (hne := block_pos0) (harr := arr_whole0) (hstage := stage_whole0)
    (howed := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (V := fun c b => m ((c.tc : Thread nD τ).loc b))
    (hmain := fun c Q => by
      simp only [main, fn_gcn_layer.body, Prog.lift, Prog.bind_op, Prog.bind_ret]
      iintro ⟨Hk, Hb⟩; iapply Hk; iexact Hb)
    (hsplit := arrays_split m)
    (hpf := fun _ k => k.elim0)
    (X := fun _ => iprop(emp)) (Y := fun _ => iprop(emp)) (Z := fun _ => iprop(emp))
    (hX := fun c => by
      iintro -; imodintro; isplitr <;> iempintro)
    (hin := fun c => by
      iintro -; iempintro)
    (hout := fun c => by
      rw [Pipeline.ownSems0_none, scopedRest0_eq]
      iintro -; isplitr; · iempintro
      isplitr <;> iempintro)
    (QY := fun _ _ => True)
    (hY := fun c s' => by
      iintro ⟨-, -, HSI⟩; imodintro
      isplitr; · ipureintro; trivial
      iexact HSI)
    (hQ := fun s h c =>
      ⟨by have h2 := (h c).1 (2 : Fin 5); rw [(rdat m c).ArrAt_in (2 : Fin 5) rfl] at h2; exact h2,
       by have h0 := (h c).1 (0 : Fin 5); rw [(rdat m c).ArrAt_in (0 : Fin 5) rfl] at h0; exact h0,
       by have h3 := (h c).1 (3 : Fin 5); rw [(rdat m c).ArrAt_in (3 : Fin 5) rfl] at h3; exact h3⟩)

/-! ## The certificate's claim -/

/-- `Cert.frame_Kernel` (Defs.lean): the run at the word-level instance. -/
theorem frame : Cert.frame_Kernel := fun m ρ _ => frame_run (F := Bits) m ρ

end Cert.Kernel.FrameProof

end
-- ==== Proof.BodyTriple.lean ====
/-
  What one run of the kernel body does to the five staging buffers it is called with.  It reads the two
  slabs of M, the feature array x and the weight row W whole, and writes the output block in two halves:
  rows 0-119 from the first slab, rows 120-239 from the second.  The two halves tile the block, so what the
  block holds afterwards is a function of what the four inputs held, whatever it held before.
-/
import proofs.«126545_g68573447848481_cont_sun_c4_810_22_alg».proof.Proof.Gen.KernelIdeal.Launch
import proofs.«126545_g68573447848481_cont_sun_c4_810_22_alg».proof.Proof.Gen.KernelIdeal.Skeleton
import proofs.«126545_g68573447848481_cont_sun_c4_810_22_alg».proof.Proof.Gen.KernelIdeal.Points
import Idealize.ShloMosaic.Lib.Pipeline.FrameBody
import Idealize.ShloMosaic.Lib.Pipeline.Kit
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

/-- A whole slab, the whole of x, the whole weight row. -/
abbrev rM : Rect S120x10000 := Rect.unit (s := S120x10000) ![0, 0] S120x10000.size inb_S120x10000_S120x10000_0_0
abbrev rX : Rect S10000x128 := Rect.unit (s := S10000x128) ![0, 0] S10000x128.size inb_S10000x128_S10000x128_0_0
abbrev rW : Rect S1x128 := Rect.unit (s := S1x128) ![0, 0] S1x128.size inb_S1x128_S1x128_0_0
/-- The output block's upper half (rows 0-119) and lower half (rows 120-239). -/
abbrev rUp : Rect S240x128 := Rect.unit (s := S240x128) ![0, 0] S120x128.size inb_S240x128_S120x128_0_0
abbrev rLo : Rect S240x128 := Rect.unit (s := S240x128) ![120, 0] S120x128.size inb_S240x128_S120x128_120_0

/-! ## What the body leaves in the output block -/

/-- The output block after the body, from what the four input buffers hold: its two stores as pieces, the
    later one first. -/
def outBlock (xa xb : Vec F S120x10000 .f32) (xx : Vec F S10000x128 .f32) (xw : Vec F S1x128 .f32) : Vec F S240x128 .f32 :=
  View.canon [⟨rLo, k0_pay2 (View.ld xw rW) (View.ld xb rM) (View.ld xx rX)⟩,
    ⟨rUp, k0_pay1 (View.ld xw rW) (View.ld xa rM) (View.ld xx rX)⟩]

/-- The two halves tile the block, so they cover it. -/
theorem cover_out (p0 p1 : Vec F S120x128 .f32) (y : S240x128.Idx) :
    ∃ pc ∈ ([⟨rLo, p1⟩, ⟨rUp, p0⟩] : List (View.Piece (Elt F) S240x128 .f32)), y ∈ pc.1.set :=
  View.cover_of_tiled [⟨rLo, p1⟩, ⟨rUp, p0⟩] S120x128.size (by rfl) y

/-! ## The body's triple -/

set_option maxHeartbeats 1000000 in
/-- The body on whole staging memrefs, the inputs' at contents `xa`, `xb`, `xx`, `xw` and the output's at anything,
    runs to the continuation holding the inputs' as they were and the output's at `outBlock` of them. -/
theorem sound_kernel (c : Dev nD) (E : Set ℕ) (i : grid0.Coords)
    (arg1 : Memref sig .tc .vmem S120x10000 .f32) (harg1 : arg1.IsWhole)
    (arg2 : Memref sig .tc .vmem S120x10000 .f32) (harg2 : arg2.IsWhole)
    (arg3 : Memref sig .tc .vmem S10000x128 .f32) (harg3 : arg3.IsWhole)
    (arg4 : Memref sig .tc .vmem S1x128 .f32) (harg4 : arg4.IsWhole)
    (arg5 : Memref sig .tc .vmem S240x128 .f32) (harg5 : arg5.IsWhole)
    (xa xb : Vec F S120x10000 .f32) (xx : Vec F S10000x128 .f32) (xw : Vec F S1x128 .f32) (K : PUnit → sProp 𝕄) :
    iprop(owns (c : Thread nD τ) arg1 fullShare xa ∗ owns (c : Thread nD τ) arg2 fullShare xb
        ∗ owns (c : Thread nD τ) arg3 fullShare xx ∗ owns (c : Thread nD τ) arg4 fullShare xw
        ∗ (∃ d, owns (c : Thread nD τ) arg5 fullShare d)
        ∗ (iprop(owns (c : Thread nD τ) arg1 fullShare xa ∗ owns (c : Thread nD τ) arg2 fullShare xb
            ∗ owns (c : Thread nD τ) arg3 fullShare xx ∗ owns (c : Thread nD τ) arg4 fullShare xw
            ∗ owns (c : Thread nD τ) arg5 fullShare (outBlock xa xb xx xw)) -∗ K ⟨⟩))
      ⊢ wp frame (wpE (defs₀ (F := F)) Variants.none c none) E
          (cc0__gcn_body i arg1 harg1 arg2 harg2 arg3 harg3 arg4 harg4 arg5 harg5) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _ _)

end Cert.KernelIdeal.Body

end
-- ==== Proof.Payload.lean ====
/-
  One half of the kernel's output block, read at an entry.  A grid point multiplies a 120-row slab of the
  matrix M by the whole feature array x on the matrix unit (into the zero accumulator) and scales each
  column by the weight row W.  At the ideal instance the entry (r, c) of that product is

      (∑ k, slab(r, k) · x(k, c)) · W(0, c),

  a sum over the 10000 columns of the slab: it involves row r of the slab and no other row.  That last
  remark is what lets the rows of a slab that lie past the matrix's end be ignored.
-/
import proofs.«126545_g68573447848481_cont_sun_c4_810_22_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The product's dimension record: the slab's second axis against x's first. -/
abbrev D := dot_S120x10000_S10000x128_S120x128_1_0_0_1_n_n

theorem lhs_row (i : S120x128.Idx) (q : D.contr.Idx) : (D.lhsIdx i q 0).val = (i 0).val := by
  unfold DotDims.lhsIdx
  rw [dif_neg (show ¬(0 : Fin S120x10000.rank) ∈ D.lhsBatch by decide),
    dif_pos (show (0 : Fin S120x10000.rank) ∈ D.lhsNonContracting by decide)]
  rfl

theorem lhs_col (i : S120x128.Idx) (q : D.contr.Idx) : (D.lhsIdx i q 1).val = (q ⟨0, by decide⟩).val :=
  D.lhsIdx_val_of_single rfl i q

theorem rhs_row (i : S120x128.Idx) (q : D.contr.Idx) : (D.rhsIdx i q 0).val = (q ⟨0, by decide⟩).val :=
  D.rhsIdx_val_of_single rfl i q

theorem rhs_col (i : S120x128.Idx) (q : D.contr.Idx) : (D.rhsIdx i q 1).val = (i 1).val := by
  unfold DotDims.rhsIdx
  rw [dif_neg (show ¬(1 : Fin S10000x128.rank) ∈ D.rhsBatch by decide),
    dif_pos (show (1 : Fin S10000x128.rank) ∈ D.rhsNonContracting by decide)]
  rfl

/-- The slab product into the zero accumulator at (r, c): the sum over k of slab(r, k) · x(k, c). -/
theorem matmul_zero_apply (v1 : Vec Ideal S120x10000 .f32) (v2 : Vec Ideal S10000x128 .f32) (r : Fin 120) (c : Fin 128) :
    matmul (F := Ideal) (φ₁ := .f32) (φ₂ := .f32) D none v1 v2 (constant S120x128 .f32 0x00000000#32) (ix2 r c)
      = ∑ k : Fin 10000, v1 (ix2 r k) * v2 (ix2 k c) := by
  simp only [matmul]
  rw [Ideal.matmul_constant_zero_apply, ← Equiv.sum_comp (contrEquiv1 D 10000 rfl rfl).symm]
  refine Finset.sum_congr rfl fun k _ => ?_
  have hk := contrEquiv1_symm_val D 10000 rfl rfl k
  have el : D.lhsIdx (ix2 r c) ((contrEquiv1 D 10000 rfl rfl).symm k) = ix2 r k := funext fun a => Fin.ext (by
    match a with
    | ⟨0, _⟩ => exact lhs_row _ _
    | ⟨1, _⟩ => exact (lhs_col _ _).trans hk)
  have er : D.rhsIdx (ix2 r c) ((contrEquiv1 D 10000 rfl rfl).symm k) = ix2 k c := funext fun a => Fin.ext (by
    match a with
    | ⟨0, _⟩ => exact (rhs_row _ _).trans hk
    | ⟨1, _⟩ => exact rhs_col _ _)
  rw [el, er]

/-- The weight row copied down the 120 rows, at (r, c): W(0, c). -/
theorem bcast_apply (v0 : Vec Ideal S1x128 .f32) (r : Fin 120) (c : Fin 128) :
    broadcastTo S120x128 v0 broadcasts_S1x128_S120x128 (ix2 r c) = v0 (ix2 0 c) :=
  broadcastTo_apply v0 _ (ix2 r c) (ix2 0 c) fun a => by
    match a with
    | ⟨0, _⟩ => show 0 = if (1 : Nat) = 1 then 0 else _; rw [if_pos rfl]
    | ⟨1, _⟩ => show c.val = if (128 : Nat) = 1 then 0 else c.val; rw [if_neg (by decide)]

/-- The upper half's payload at (r, c). -/
theorem pay1_apply (v0 : Vec Ideal S1x128 .f32) (v1 : Vec Ideal S120x10000 .f32) (v2 : Vec Ideal S10000x128 .f32)
    (r : Fin 120) (c : Fin 128) :
    k0_pay1 (F := Ideal) v0 v1 v2 (ix2 r c) = (∑ k : Fin 10000, v1 (ix2 r k) * v2 (ix2 k c)) * v0 (ix2 0 c) := by
  unfold k0_pay1
  show matmul (F := Ideal) (φ₁ := .f32) (φ₂ := .f32) D none v1 v2 (constant S120x128 .f32 0x00000000#32) (ix2 r c)
      * broadcastTo S120x128 v0 broadcasts_S1x128_S120x128 (ix2 r c) = _
  rw [matmul_zero_apply, bcast_apply]

/-- The lower half's payload is the same function of its own slab. -/
theorem pay2_apply (v0 : Vec Ideal S1x128 .f32) (v7 : Vec Ideal S120x10000 .f32) (v8 : Vec Ideal S10000x128 .f32)
    (r : Fin 120) (c : Fin 128) :
    k0_pay2 (F := Ideal) v0 v7 v8 (ix2 r c) = (∑ k : Fin 10000, v7 (ix2 r k) * v8 (ix2 k c)) * v0 (ix2 0 c) :=
  pay1_apply v0 v7 v8 r c

end Cert.KernelIdeal.Payload

end
-- ==== Proof.BlockValue.lean ====
/-
  The output block at a grid point, entry by entry, at the ideal instance.

  * Row p of the block (0 ≤ p < 240) comes from the first slab if p < 120 and from the second otherwise, and is
        (∑ k, slab(p mod 120, k) · x(k, q)) · W(0, q).
  * At grid point t the first slab is rows 240 t … 240 t + 119 of M and the second rows 240 t + 120 … 240 t + 239,
    the output block rows 240 t … 240 t + 239 of the result; the last blocks overhang the arrays (10000 = 41·240 + 160)
    and only their rows inside the arrays are moved.  A row of the output block inside the result is computed from
    a slab row inside M, so it never sees the rows past M's end.
-/
import proofs.«126545_g68573447848481_cont_sun_c4_810_22_alg».proof.Proof.BodyTriple
import proofs.«126545_g68573447848481_cont_sun_c4_810_22_alg».proof.Proof.Payload

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem hz2 : (![0, 0] : Fin 2 → Nat) = fun _ => 0 := funext fun a => by fin_cases a <;> rfl

/-! ## The output block read at an entry -/

theorem up_emb (r : Fin 120) (q : Fin 128) : rUp.emb (ix2 r q) = ix2 (⟨r.val, by omega⟩ : Fin 240) q :=
  funext fun a => Fin.ext (by
    match a with
    | ⟨0, _⟩ => rw [Rect.emb_apply]; show 0 + 1 * r.val = r.val; omega
    | ⟨1, _⟩ => rw [Rect.emb_apply]; show 0 + 1 * q.val = q.val; omega)

theorem lo_emb (r : Fin 120) (q : Fin 128) : rLo.emb (ix2 r q) = ix2 (⟨120 + r.val, by omega⟩ : Fin 240) q :=
  funext fun a => Fin.ext (by
    match a with
    | ⟨0, _⟩ => rw [Rect.emb_apply]; show 120 + 1 * r.val = 120 + r.val; omega
    | ⟨1, _⟩ => rw [Rect.emb_apply]; show 0 + 1 * q.val = q.val; omega)

theorem up_not_mem_lo (r : Fin 120) (q : Fin 128) : ix2 (⟨r.val, by omega⟩ : Fin 240) q ∉ rLo.set := by
  rw [Rect.mem_set_unit]
  intro h
  have h0 := (h 0).1
  have : (120 : Nat) ≤ r.val := h0
  omega

/-- Two stores, the later into the lower half, the earlier into the upper half: an upper row reads the earlier
    payload, a lower row the later one. -/
theorem canon_up (p1 p2 : Vec Ideal S120x128 .f32) (r : Fin 120) (q : Fin 128) :
    View.canon ([⟨rLo, p2⟩, ⟨rUp, p1⟩] : List (View.Piece (Elt Ideal) S240x128 .f32)) (ix2 (⟨r.val, by omega⟩ : Fin 240) q)
      = p1 (ix2 r q) := by
  rw [View.canon_cons_of_not_mem (⟨rLo, p2⟩ : View.Piece (Elt Ideal) S240x128 .f32) [⟨rUp, p1⟩] (up_not_mem_lo r q),
    ← up_emb r q]
  exact View.canon_cons_emb rUp p1 [] (ix2 r q)

theorem canon_lo (p1 p2 : Vec Ideal S120x128 .f32) (r : Fin 120) (q : Fin 128) :
    View.canon ([⟨rLo, p2⟩, ⟨rUp, p1⟩] : List (View.Piece (Elt Ideal) S240x128 .f32)) (ix2 (⟨120 + r.val, by omega⟩ : Fin 240) q)
      = p2 (ix2 r q) := by
  rw [← lo_emb r q]
  exact View.canon_cons_emb rLo p2 [⟨rUp, p1⟩] (ix2 r q)

/-- Rows 0-119 of the output block: from the first slab. -/
theorem outBlock_up (xa xb : Vec Ideal S120x10000 .f32) (xx : Vec Ideal S10000x128 .f32) (xw : Vec Ideal S1x128 .f32)
    (r : Fin 120) (q : Fin 128) :
    outBlock (F := Ideal) xa xb xx xw (ix2 (⟨r.val, by omega⟩ : Fin 240) q)
      = (∑ k : Fin 10000, xa (ix2 r k) * xx (ix2 k q)) * xw (ix2 0 q) := by
  unfold outBlock
  rw [canon_up, Payload.pay1_apply, View.ld_unit_zero hz2, View.ld_unit_zero hz2, View.ld_unit_zero hz2]

/-- Rows 120-239: from the second slab. -/
theorem outBlock_lo (xa xb : Vec Ideal S120x10000 .f32) (xx : Vec Ideal S10000x128 .f32) (xw : Vec Ideal S1x128 .f32)
    (r : Fin 120) (q : Fin 128) :
    outBlock (F := Ideal) xa xb xx xw (ix2 (⟨120 + r.val, by omega⟩ : Fin 240) q)
      = (∑ k : Fin 10000, xb (ix2 r k) * xx (ix2 k q)) * xw (ix2 0 q) := by
  unfold outBlock
  rw [canon_lo, Payload.pay2_apply, View.ld_unit_zero hz2, View.ld_unit_zero hz2, View.ld_unit_zero hz2]

/-! ## The index maps and the cuts, decided over the grid -/

/-- Block indices at point `t`: slabs 2t and 2t+1 of M, all of x and W, block t of the result. -/
theorem idx_facts : ∀ t : Fin cfg0.N,
    win0_0.index t 0 = 2 * t.val ∧ win0_0.index t 1 = 0 ∧ win0_1.index t 0 = 2 * t.val + 1 ∧ win0_1.index t 1 = 0
    ∧ win0_2.index t 0 = 0 ∧ win0_2.index t 1 = 0 ∧ win0_3.index t 0 = 0 ∧ win0_3.index t 1 = 0
    ∧ win0_4.index t 0 = t.val ∧ win0_4.index t 1 = 0 :=
  (by decide +kernel : ∀ t : Fin grid0.N,
    win0_0.index t 0 = 2 * t.val ∧ win0_0.index t 1 = 0 ∧ win0_1.index t 0 = 2 * t.val + 1 ∧ win0_1.index t 1 = 0
    ∧ win0_2.index t 0 = 0 ∧ win0_2.index t 1 = 0 ∧ win0_3.index t 0 = 0 ∧ win0_3.index t 1 = 0
    ∧ win0_4.index t 0 = t.val ∧ win0_4.index t 1 = 0)

/-- How many rows of each block the transfers move: all 120 of the first slab, the second slab's and the output
    block's rows inside the arrays (all but at the last point). -/
theorem xsize_facts : ∀ t : Fin cfg0.N,
    win0_0.xsize (grid0.coords t) 0 = 120 ∧ win0_0.xsize (grid0.coords t) 1 = 10000
    ∧ win0_1.xsize (grid0.coords t) 0 = min 120 (10000 - (240 * t.val + 120)) ∧ win0_1.xsize (grid0.coords t) 1 = 10000
    ∧ win0_4.xsize (grid0.coords t) 0 = min 240 (10000 - 240 * t.val) ∧ win0_4.xsize (grid0.coords t) 1 = 128 :=
  (by decide +kernel : ∀ t : Fin grid0.N,
    win0_0.xsize (grid0.coords t) 0 = 120 ∧ win0_0.xsize (grid0.coords t) 1 = 10000
    ∧ win0_1.xsize (grid0.coords t) 0 = min 120 (10000 - (240 * t.val + 120)) ∧ win0_1.xsize (grid0.coords t) 1 = 10000
    ∧ win0_4.xsize (grid0.coords t) 0 = min 240 (10000 - 240 * t.val) ∧ win0_4.xsize (grid0.coords t) 1 = 128)

theorem t_lt (t : Fin cfg0.N) : t.val < 42 := t.isLt

end Cert.KernelIdeal.Body

end
-- ==== Proof.Spec.lean ====
/-
  The value the kernel and the reference both compute, as a function of the three argument arrays, read index by index.

  With x : [10000, 128], M : [10000, 10000], W : [1, 128]:
    G    x M W (r, c) = (∑ k, M (r, k) * x (k, c)) * W (0, c)      -- the row sum first, then the scale
    Gref x M W (r, c) = ∑ k, M (r, k) * (x (k, c) * W (0, c))      -- the scale first, then the row sum
  The two agree when every entry is a real number: a real factor distributes over a finite sum of reals. On the
  extended reals distributivity fails at the infinities (a sum of +∞ and -∞ terms), hence the hypotheses.
-/
import Idealize.ShloMosaic.PureOps.Ideal
import Idealize.ShloMosaic.PureOps.Ideal.Laws
import Idealize.ShloMosaic.Lib.ValueIdx

noncomputable section

open scoped BigOperators

namespace Cert.GcnSpec

open Idealize.ShloMosaic Idealize.ShloMosaic.ValueIdx

/-- The shape of `x` and of the result. -/
abbrev SX : Shape := ⟨2, ![10000, 128]⟩
/-- The shape of `M`. -/
abbrev SM : Shape := ⟨2, ![10000, 10000]⟩
/-- The shape of `W`. -/
abbrev SW : Shape := ⟨2, ![1, 128]⟩

/-- The value at row `r`, column `c`: the row sum of `M` against column `c` of `x`, then scaled by `W (0, c)`. -/
def Gat (x : SX.Idx → EReal) (M : SM.Idx → EReal) (W : SW.Idx → EReal) (r : Fin 10000) (c : Fin 128) : EReal :=
  (∑ k : Fin 10000, M (ix2 r k) * x (ix2 k c)) * W (ix2 (0 : Fin 1) c)

/-- The value at row `r`, column `c` with the scale applied to `x` before the row sum. -/
def Grefat (x : SX.Idx → EReal) (M : SM.Idx → EReal) (W : SW.Idx → EReal) (r : Fin 10000) (c : Fin 128) : EReal :=
  ∑ k : Fin 10000, M (ix2 r k) * (x (ix2 k c) * W (ix2 (0 : Fin 1) c))

/-- The specification: `(M · x)` scaled column by column by `W`. -/
def G (x : SX.Idx → EReal) (M : SM.Idx → EReal) (W : SW.Idx → EReal) : SX.Idx → EReal :=
  fun i => Gat x M W (i 0) (i 1)

/-- The same array with the scale applied first: `M · (x scaled by W)`. -/
def Gref (x : SX.Idx → EReal) (M : SM.Idx → EReal) (W : SW.Idx → EReal) : SX.Idx → EReal :=
  fun i => Grefat x M W (i 0) (i 1)

theorem G_apply (x : SX.Idx → EReal) (M : SM.Idx → EReal) (W : SW.Idx → EReal) (i : SX.Idx) :
    G x M W i = Gat x M W (i 0) (i 1) := rfl

theorem Gref_apply (x : SX.Idx → EReal) (M : SM.Idx → EReal) (W : SW.Idx → EReal) (i : SX.Idx) :
    Gref x M W i = Grefat x M W (i 0) (i 1) := rfl

/-- At an index given by its coordinates. -/
theorem G_ix2 (x : SX.Idx → EReal) (M : SM.Idx → EReal) (W : SW.Idx → EReal) (r : Fin 10000) (c : Fin 128) :
    G x M W (ix2 r c) = Gat x M W r c := rfl

theorem Gref_ix2 (x : SX.Idx → EReal) (M : SM.Idx → EReal) (W : SW.Idx → EReal) (r : Fin 10000) (c : Fin 128) :
    Gref x M W (ix2 r c) = Grefat x M W r c := rfl

/-- The coercion of the reals into the extended reals commutes with finite sums. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Entry by entry: with real entries the scale may be applied before or after the row sum. -/
theorem Gat_eq_Grefat (x : SX.Idx → EReal) (M : SM.Idx → EReal) (W : SW.Idx → EReal)
    (hx : ∀ i, ∃ r : ℝ, x i = (r : EReal)) (hM : ∀ i, ∃ r : ℝ, M i = (r : EReal)) (hW : ∀ i, ∃ r : ℝ, W i = (r : EReal))
    (r : Fin 10000) (c : Fin 128) : Gat x M W r c = Grefat x M W r c := by
  choose xr hxr using hx
  choose Mr hMr using hM
  choose Wr hWr using hW
  unfold Gat Grefat
  simp only [hxr, hMr, hWr, ← EReal.coe_mul, ← coe_sum]
  rw [Finset.sum_mul]
  simp only [mul_assoc]

/-- THE LAW: with real entries the two arrangements are the same array. -/
theorem G_eq_Gref (x : SX.Idx → EReal) (M : SM.Idx → EReal) (W : SW.Idx → EReal)
    (hx : ∀ i, ∃ r : ℝ, x i = (r : EReal)) (hM : ∀ i, ∃ r : ℝ, M i = (r : EReal)) (hW : ∀ i, ∃ r : ℝ, W i = (r : EReal)) :
    G x M W = Gref x M W :=
  funext fun i => Gat_eq_Grefat x M W hx hM hW (i 0) (i 1)

end Cert.GcnSpec

end
-- ==== Proof.BodyData.lean ====
/-
  The proof data of the one pipeline at the ideal instance, and the body's obligation at every grid point.

  After the body at point t the two slab buffers still hold their slabs (rows 240 t … and 240 t + 120 … of M, as
  far as they lie inside M), the x and W buffers the whole of x and W, and the output buffer — on its rows inside
  the result — rows 240 t … of the array

      G(r, q) = (∑ k, M(r, k) · x(k, q)) · W(0, q).

  The rows of a staged slab past M's end hold values nothing names; the output rows computed from them lie past
  the result's end and are never written back, and nothing is claimed of them.
-/
import proofs.«126545_g68573447848481_cont_sun_c4_810_22_alg».proof.Proof.BlockValue
import proofs.«126545_g68573447848481_cont_sun_c4_810_22_alg».proof.Proof.Spec

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- Core `c`'s TensorCore buffers when the region is entered: as launched. -/
abbrev V (c : Dev nD) (b : Ref sig .tc) : Buf (Elt Ideal) ((c : Thread nD τ).loc b) := m ((c : Thread nD τ).loc b)

/-- Window `w`'s block at point `t`, read off its array: the part of the block inside the array. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-- The result as one function of the argument arrays: (∑ k, M(r, k) · x(k, q)) · W(0, q). -/
def Gk (c : Dev nD) : S10000x128.Idx → EReal :=
  Cert.GcnSpec.G (V m c main_arg0) (V m c main_arg1) (V m c main_arg2)

/-! ## The staged blocks read at an entry -/

/-- The first slab's buffer just fetched at point `t`, at (r, k) with row 240 t + r inside M: M(240 t + r, k). -/
theorem slabA_apply (c : Dev nD) (t : Fin cfg0.N) (d : win0_0.block.Idx → Elt Ideal win0_0.elt) (r : Fin 120) (k : Fin 10000)
    (h : 240 * t.val + r.val < 10000) :
    win0_0.fill (grid0.coords t) d (iblk m c 0 t) (ix2 r k) = V m c main_arg1 (ix2 (⟨240 * t.val + r.val, h⟩ : Fin 10000) k) := by
  have hx := xsize_facts t; have hi := idx_facts t
  have hm : win0_0.moved (grid0.coords t) (ix2 r k) = true := (win0_0.moved_iff _ _).mpr fun a => by
    match a with
    | ⟨0, _⟩ => show r.val < win0_0.xsize (grid0.coords t) 0; rw [hx.1]; exact r.isLt
    | ⟨1, _⟩ => show k.val < win0_0.xsize (grid0.coords t) 1; rw [hx.2.1]; exact k.isLt
  unfold Window.fill; rw [dif_pos hm]
  show V m c main_arg1 ((win0_0.blk t).view.emb _) = _
  refine congrArg _ (funext fun a => Fin.ext ?_)
  match a with
  | ⟨0, _⟩ => show win0_0.index t 0 * 120 + 1 * r.val = 240 * t.val + r.val; rw [hi.1]; omega
  | ⟨1, _⟩ => show win0_0.index t 1 * 10000 + 1 * k.val = k.val; rw [hi.2.1]; omega

/-- The second slab's, at (r, k) with row 240 t + 120 + r inside M: M(240 t + 120 + r, k). -/
theorem slabB_apply (c : Dev nD) (t : Fin cfg0.N) (d : win0_1.block.Idx → Elt Ideal win0_1.elt) (r : Fin 120) (k : Fin 10000)
    (h : 240 * t.val + 120 + r.val < 10000) :
    win0_1.fill (grid0.coords t) d (iblk m c 1 t) (ix2 r k) = V m c main_arg1 (ix2 (⟨240 * t.val + 120 + r.val, h⟩ : Fin 10000) k) := by
  have hx := xsize_facts t; have hi := idx_facts t
  have hm : win0_1.moved (grid0.coords t) (ix2 r k) = true := (win0_1.moved_iff _ _).mpr fun a => by
    match a with
    | ⟨0, _⟩ => show r.val < win0_1.xsize (grid0.coords t) 0; rw [hx.2.2.1]; have := r.isLt; omega
    | ⟨1, _⟩ => show k.val < win0_1.xsize (grid0.coords t) 1; rw [hx.2.2.2.1]; exact k.isLt
  unfold Window.fill; rw [dif_pos hm]
  show V m c main_arg1 ((win0_1.blk t).view.emb _) = _
  refine congrArg _ (funext fun a => Fin.ext ?_)
  match a with
  | ⟨0, _⟩ => show win0_1.index t 0 * 120 + 1 * r.val = 240 * t.val + 120 + r.val; rw [hi.2.2.1]; omega
  | ⟨1, _⟩ => show win0_1.index t 1 * 10000 + 1 * k.val = k.val; rw [hi.2.2.2.1]; omega

/-- The x buffer holds x. -/
theorem x_apply (c : Dev nD) (t : Fin cfg0.N) (k : Fin 10000) (q : Fin 128) :
    iblk m c 2 t (ix2 k q) = V m c main_arg0 (ix2 k q) := by
  have hi := idx_facts t
  show V m c main_arg0 ((win0_2.blk t).view.emb (ix2 k q)) = _
  refine congrArg _ (funext fun a => Fin.ext ?_)
  match a with
  | ⟨0, _⟩ => show win0_2.index t 0 * 10000 + 1 * k.val = k.val; rw [hi.2.2.2.2.1]; omega
  | ⟨1, _⟩ => show win0_2.index t 1 * 128 + 1 * q.val = q.val; rw [hi.2.2.2.2.2.1]; omega

/-- The W buffer holds W. -/
theorem w_apply (c : Dev nD) (t : Fin cfg0.N) (q : Fin 128) :
    iblk m c 3 t (ix2 (0 : Fin 1) q) = V m c main_arg2 (ix2 (0 : Fin 1) q) := by
  have hi := idx_facts t
  show V m c main_arg2 ((win0_3.blk t).view.emb (ix2 (0 : Fin 1) q)) = _
  refine congrArg _ (funext fun a => Fin.ext ?_)
  match a with
  | ⟨0, _⟩ => show win0_3.index t 0 * 1 + 1 * 0 = 0; rw [hi.2.2.2.2.2.2.1]
  | ⟨1, _⟩ => show win0_3.index t 1 * 128 + 1 * q.val = q.val; rw [hi.2.2.2.2.2.2.2.1]; omega

/-! ## The output block's rows inside the result -/

/-- What the body computes from the staged blocks, on the output block's rows inside the result, is the block of
    `Gk` there — whatever the slab buffers hold past M's end (`d0`, `d1`). -/
theorem out_cut (c : Dev nD) (t : Fin cfg0.N) (d0 : win0_0.block.Idx → Elt Ideal win0_0.elt) (d1 : win0_1.block.Idx → Elt Ideal win0_1.elt) :
    win0_4.cut (grid0.coords t) (outBlock (F := Ideal) (win0_0.fill (grid0.coords t) d0 (iblk m c 0 t))
        (win0_1.fill (grid0.coords t) d1 (iblk m c 1 t)) (iblk m c 2 t) (iblk m c 3 t))
      = (win0_4.blk t).view.read (Elt Ideal) (Gk m c) := by
  funext j
  have hx := xsize_facts t; have hi := idx_facts t
  have hj0 : (j 0).val < min 240 (10000 - 240 * t.val) := by
    have := (j 0).isLt; rw [← hx.2.2.2.2.1]; exact this
  have hj1 : (j 1).val < 128 := by
    have := (j 1).isLt; rw [← hx.2.2.2.2.2]; exact this
  have hrow : 240 * t.val + (j 0).val < 10000 := by omega
  show outBlock (F := Ideal) _ _ _ _ (win0_4.xinj (grid0.coords t) j) = Gk m c ((win0_4.blk t).view.emb j)
  have eI : (win0_4.blk t).view.emb j = ix2 (⟨240 * t.val + (j 0).val, hrow⟩ : Fin 10000) (⟨(j 1).val, hj1⟩ : Fin 128) :=
    funext fun a => Fin.ext (by
      match a with
      | ⟨0, _⟩ => show win0_4.index t 0 * 240 + 1 * (j 0).val = 240 * t.val + (j 0).val; rw [hi.2.2.2.2.2.2.2.2.1]; omega
      | ⟨1, _⟩ => show win0_4.index t 1 * 128 + 1 * (j 1).val = (j 1).val; rw [hi.2.2.2.2.2.2.2.2.2]; omega)
  rw [eI]
  unfold Gk
  rw [Cert.GcnSpec.G_ix2]
  unfold Cert.GcnSpec.Gat
  by_cases hlt : (j 0).val < 120
  · have eJ : win0_4.xinj (grid0.coords t) j
        = ix2 (⟨(⟨(j 0).val, hlt⟩ : Fin 120).val, by omega⟩ : Fin 240) (⟨(j 1).val, hj1⟩ : Fin 128) :=
      funext fun a => Fin.ext (by match a with | ⟨0, _⟩ => rfl | ⟨1, _⟩ => rfl)
    rw [eJ, outBlock_up, w_apply]
    refine congrArg (· * _) (Finset.sum_congr rfl fun k _ => ?_)
    rw [slabA_apply m c t d0 ⟨(j 0).val, hlt⟩ k hrow, x_apply]
  · have hge : 120 ≤ (j 0).val := Nat.le_of_not_lt hlt
    have hr : (j 0).val - 120 < 120 := by omega
    have eJ : win0_4.xinj (grid0.coords t) j
        = ix2 (⟨120 + (⟨(j 0).val - 120, hr⟩ : Fin 120).val, by omega⟩ : Fin 240) (⟨(j 1).val, hj1⟩ : Fin 128) :=
      funext fun a => Fin.ext (by
        match a with
        | ⟨0, _⟩ => show (j 0).val = 120 + ((j 0).val - 120); omega
        | ⟨1, _⟩ => rfl)
    rw [eJ, outBlock_lo, w_apply]
    refine congrArg (· * _) (Finset.sum_congr rfl fun k _ => ?_)
    rw [slabB_apply m c t d1 ⟨(j 0).val - 120, hr⟩ k (by show 240 * t.val + 120 + ((j 0).val - 120) < 10000; omega), x_apply]
    have e : (⟨240 * t.val + 120 + ((j 0).val - 120), by omega⟩ : Fin 10000) = ⟨240 * t.val + (j 0).val, hrow⟩ :=
      Fin.ext (by show 240 * t.val + 120 + ((j 0).val - 120) = 240 * t.val + (j 0).val; omega)
    rw [e]

end Cert.KernelIdeal.Body

end
-- ==== Proof.KernelRun.lean ====
/-
  The run of the idealized kernel: from any memory, every weakly fair execution ends with the result array holding
  what the pipeline's write-backs left — block t's rows inside the result written with rows 240 t … of
      G(r, q) = (∑ k, M(r, k) · x(k, q)) · W(0, q)
  — and the three argument arrays unchanged.  The matrix M is handed to the kernel twice (the even and the odd
  slabs are two input windows on one array), so its one buffer is split into two half shares, one per window.
-/
import proofs.«126545_g68573447848481_cont_sun_c4_810_22_alg».proof.Proof.BodyData

set_option maxRecDepth 16384

noncomputable section

namespace Cert.KernelIdeal.Body

open Cert.KernelIdeal Cert.KernelIdeal.Gen
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-- The proof's resource algebra: one copy of the rounds library's, the pipeline's. -/
abbrev EP : Emb (UR sig nD τ) (MT nD τ sig Unit (Elt Ideal) ℕ (UR sig nD τ) ℕ) := emb₁

variable (m : (ℓ : Loc nD τ sig) → Buf (Elt Ideal) ℓ) (ρ : Dev nD → PrngReg)

/-! ## The proof data -/

/-- The proof data on core `c`: the arrays as launched; after the body at point `t` the slab buffers at their slabs
    (the rows past M's end filled with zero, which nothing reads), the x and W buffers at x and W, the output buffer
    at block `t` of `Gk` on its rows inside the result; no invariant; nothing owed; M's buffer in two half shares. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => win0_1.fill (grid0.coords t) (fun _ => (0 : EReal)) (iblk m c 1 t)
    | ⟨2, _⟩ => iblk m c 2 t
    | ⟨3, _⟩ => iblk m c 3 t
    | ⟨4, _⟩ => win0_4.fill (grid0.coords t) (fun _ => (0 : EReal)) ((win0_4.blk t).view.read (Elt Ideal) (Gk m c))
  Φ _ := iprop(emp)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) :
    (dats m 0 c).after 0 t = win0_0.fill (grid0.coords t) (fun _ => (0 : EReal)) (iblk m c 0 t) := by dsimp only [dats]
theorem after_1 (c : Dev nD) (t : Fin cfg0.N) :
    (dats m 0 c).after 1 t = win0_1.fill (grid0.coords t) (fun _ => (0 : EReal)) (iblk m c 1 t) := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) :
    (dats m 0 c).after 4 t = win0_4.fill (grid0.coords t) (fun _ => (0 : EReal)) ((win0_4.blk t).view.read (Elt Ideal) (Gk m c)) := by
  dsimp only [dats]

/-! ## What the body finds -/

/-- The slab buffers, fetched at every point: the slab on the rows inside M, `d` past them. -/
theorem before_0 (c : Dev nD) (t : Fin cfg0.N) (d) :
    (dats m 0 c).before 0 t d = win0_0.fill (grid0.coords t) d (iblk m c 0 t) := by
  rw [Dat.before_fetched _ 0 t (fetch0_0 t) d]; unfold Dat.fetched Dat.blockOf iblk; rw [A_eq]
theorem before_1 (c : Dev nD) (t : Fin cfg0.N) (d) :
    (dats m 0 c).before 1 t d = win0_1.fill (grid0.coords t) d (iblk m c 1 t) := by
  rw [Dat.before_fetched _ 1 t (fetch0_1 t) d]; unfold Dat.fetched Dat.blockOf iblk; rw [A_eq]

/-- The x and W buffers, fetched once: x and W at every point (the body leaves them in place). -/
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation -/

theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  rw [before_0 m c t d0, before_1 m c t d1, before_2 m c t d2, before_3 m c t d3]
  iapply (sound_kernel (F := Ideal) c Set.univ (grid0.coords t)
    (win0_0.stage (cfg0.slots t 0)) (Gen.hstage0_0 ((cfg0.slots t 0).cast Gen.nbuf0_0))
    (win0_1.stage (cfg0.slots t 1)) (Gen.hstage0_1 ((cfg0.slots t 1).cast Gen.nbuf0_1))
    (win0_2.stage (cfg0.slots t 2)) (Gen.hstage0_2 ((cfg0.slots t 2).cast Gen.nbuf0_2))
    (win0_3.stage (cfg0.slots t 3)) (Gen.hstage0_3 ((cfg0.slots t 3).cast Gen.nbuf0_3))
    (win0_4.stage (cfg0.slots t 4)) (Gen.hstage0_4 ((cfg0.slots t 4).cast Gen.nbuf0_4))
    (win0_0.fill (grid0.coords t) d0 (iblk m c 0 t)) (win0_1.fill (grid0.coords t) d1 (iblk m c 1 t))
    (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  -- the slab buffers are as found: on the rows inside M their slabs, which is all a loose window's obligation states
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [after_0, win0_0.cut_fill]; try iexact H0
  isplitl [H1]
  · iexists d1
    change _ ⊢ owns (c : Thread nD τ) (stage0_1 (cfg0.slots t 1)) fullShare
      (win0_1.fill (grid0.coords t) d1 (win0_1.cut (grid0.coords t) ((dats m 0 c).after 1 t)))
    rw [after_1, win0_1.cut_fill]; try iexact H1
  isplitl [H2]
  · rw [after_2]; iexact H2
  isplitl [H3]
  · rw [after_3]; iexact H3
  -- the output buffer: on its rows inside the result the block of `Gk` (`out_cut`), whatever else it holds
  · iexists outBlock (F := Ideal) (win0_0.fill (grid0.coords t) d0 (iblk m c 0 t)) (win0_1.fill (grid0.coords t) d1 (iblk m c 1 t))
      (iblk m c 2 t) (iblk m c 3 t)
    change _ ⊢ owns (c : Thread nD τ) (stage0_4 (cfg0.slots t 4)) fullShare
      (win0_4.fill (grid0.coords t) (outBlock (F := Ideal) (win0_0.fill (grid0.coords t) d0 (iblk m c 0 t))
          (win0_1.fill (grid0.coords t) d1 (iblk m c 1 t)) (iblk m c 2 t) (iblk m c 3 t))
        (win0_4.cut (grid0.coords t) ((dats m 0 c).after 4 t)))
    rw [after_4, win0_4.cut_fill, ← out_cut m c t d0 d1, win0_4.fill_cut]; try iexact H4

/-! ## M's buffer in two halves -/

/-- The buffers behind the windows' arrays are four: M (two windows), x, W and the result. -/
theorem arr_image : Finset.univ.image (Pipeline.arrRef spec0) = ([main_arg1, main_arg0, main_arg2, main_v0] : List (Ref sig .tc)).toFinset := by
  decide

theorem arrBufs_eq (c : Dev nD) :
    (Pipeline.arrBufs spec0 c (V m c) : sProp 𝕄)
      = iprop(((c : Thread nD τ).loc main_arg1 ↦{fullShare} V m c main_arg1) ∗ ((c : Thread nD τ).loc main_arg0 ↦{fullShare} V m c main_arg0)
          ∗ ((c : Thread nD τ).loc main_arg2 ↦{fullShare} V m c main_arg2) ∗ ((c : Thread nD τ).loc main_v0 ↦{fullShare} V m c main_v0)) :=
  bigSep_eq_bigSepL_of_eq [main_arg1, main_arg0, main_arg2, main_v0] arr_image (by decide) _

/-- What the launch hands the pipeline — the four buffers whole — makes the five windows' arrays: M's split into the
    two half shares of its two windows. -/
theorem hsplit (c : Dev nD) :
    (Pipeline.arrBufs spec0 c (V m c) : sProp 𝕄) ⊢ (dats m 0 c).arrays ((dats m 0 c).arrAt · 0) := by
  rw [arrBufs_eq]
  unfold Dat.arrays
  rw [bigSep_W0]
  simp only
  rw [View.set_whole, View.set_whole, View.set_whole, View.set_whole]
  iintro ⟨H1, H0, H2, Hv⟩
  ihave H1 := (pointsTo_share (PosShare.mem_left_op_right fullShare)).1 $$ H1
  icases H1 with ⟨Ha, Hb⟩
  isplitl [Ha]; · iexact Ha
  isplitl [Hb]; · iexact Hb
  isplitl [H0]; · iexact H0
  isplitl [H2]; · iexact H2
  iexact Hv

/-! ## The launch, by the library -/

/-- The rounds library's launch element: every staging cell's owner at round 0 and a duty token for every transfer
    the pipeline issues. -/
def u₀ : UR sig nD τ := initOf (Pipeline.cells cfgs cellOf_inj) (Pipeline.launchToks cfgs cellOf_inj)

/-- The physical post: every array of the kernel holds what the write-backs left. -/
def QC : PUnit × MemSt nD τ sig (Elt Ideal) → Prop := fun r =>
  ∀ (c : Dev nD) (w : Fin cfg0.W), r.2.mem ((cfg0.win w).arr.view.loc (c : Thread nD τ)) = (dats m 0 c).arrAt w cfg0.N

set_option backward.isDefEq.respectTransparency.types false in
/-- From any memory with zero counters: every weakly fair execution of @main terminates, nothing faulting, and every
    array of the kernel ends at the contents the proof data computes. -/
theorem run_main : θ_run defs (onTc (τ := τ) (main (F := Ideal))) (s₀ m ρ) (QC m) :=
  Pipeline.θ_run_region_noSem_shared cfgs (dats m) () cellOf_inj (0 : Fin 1) winFacts₀0 EP defs₀ Variants.none m ρ main
    (hbody := body_obligation m)
    (hne := block_pos0) (harr := arr_whole0) (hstage := stage_whole0)
    (howed := fun _ _ => rfl)
    (u₀ := u₀) (hu₀ := BI.Entails.refl _)
    (V := fun c b => m ((c : Thread nD τ).loc b))
    (hmain := fun c Q => by
      simp only [main, fn_gcn_layer.body, Prog.lift, Prog.bind_op, Prog.bind_ret]
      iintro ⟨Hk, Hb⟩; iapply Hk; iexact Hb)
    (hsplit := hsplit m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-! ## The result array in closed form -/

/-- What point `t` writes back: block `t` of `Gk`, its rows inside the result. -/
theorem flushed_4 (c : Dev nD) (t : Fin cfg0.N) :
    (dats m 0 c).flushed 4 t = ((cfg0.win 4).blk t).view.read (Elt Ideal) (Gk m c) := by
  show win0_4.cut (grid0.coords t) ((dats m 0 c).after 4 t) = _
  rw [after_4, win0_4.cut_fill]

/-- An entry of the result is in block `t` iff its row is among the block's rows inside the result. -/
theorem mem_blk4 (t : Fin cfg0.N) (i : S10000x128.Idx) :
    i ∈ (win0_4.blk t).view.set ↔ 240 * t.val ≤ (i 0).val ∧ (i 0).val < 240 * t.val + min 240 (10000 - 240 * t.val) := by
  have hx := xsize_facts t; have hi := idx_facts t
  have h1 : (i 1).val < 128 := idx2_lt1 i
  show i ∈ ((View.whole main_v0).slice (win0_4.rect t)).set ↔ _
  rw [View.set_slice_whole, Rect.mem_set_unit]
  constructor
  · intro h
    have h0 : win0_4.index t 0 * 240 ≤ (i 0).val ∧ (i 0).val < win0_4.index t 0 * 240 + win0_4.xsize (grid0.coords t) 0 := h 0
    rw [hi.2.2.2.2.2.2.2.2.1, hx.2.2.2.2.1] at h0
    omega
  · intro h a
    match a with
    | ⟨0, _⟩ =>
      show win0_4.index t 0 * 240 ≤ (i 0).val ∧ (i 0).val < win0_4.index t 0 * 240 + win0_4.xsize (grid0.coords t) 0
      rw [hi.2.2.2.2.2.2.2.2.1, hx.2.2.2.2.1]; omega
    | ⟨1, _⟩ =>
      show win0_4.index t 1 * 128 ≤ (i 1).val ∧ (i 1).val < win0_4.index t 1 * 128 + win0_4.xsize (grid0.coords t) 1
      rw [hi.2.2.2.2.2.2.2.2.2, hx.2.2.2.2.2]; omega

/-- Row r of the result lies in block r / 240: the 42 blocks' rows inside the result are all its rows. -/
theorem cover4 (i : S10000x128.Idx) :
    ∃ t : Fin cfg0.N, (cfg0.win 4).flush t = true ∧ i ∈ ((cfg0.win 4).blk t).view.set := by
  have h0 : (i 0).val < 10000 := idx2_lt0 i
  have hN : (i 0).val / 240 < cfg0.N := by rw [show cfg0.N = 42 from N_0]; omega
  refine ⟨⟨(i 0).val / 240, hN⟩, flush0_4 _, ?_⟩
  show i ∈ (win0_4.blk ⟨(i 0).val / 240, hN⟩).view.set
  rw [mem_blk4]
  show 240 * ((i 0).val / 240) ≤ (i 0).val ∧ (i 0).val < 240 * ((i 0).val / 240) + min 240 (10000 - 240 * ((i 0).val / 240))
  omega

/-- So the result array ends holding `Gk`. -/
theorem final_out (c : Dev nD) : (dats m 0 c).arrAt 4 cfg0.N = Gk m c :=
  (dats m 0 c).arrAt_eq_of_cover 4 (Gk m c) (fun t _ => flushed_4 m c t) cover4

/-- The run read at the result and the arguments: the result is `Gk`, the arguments are unchanged. -/
theorem run : θ_run defs (onTc (τ := τ) (main (F := Ideal))) ⟨m, fun _ => 0, ρ⟩ (fun r => ∀ c : Dev nD,
      r.2.mem ((c.tc : Thread nD τ).loc main_v0) = Gk m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c 4).trans (final_out m c),
      (h c 2).trans ((dats m 0 c).arrAt_in 2 rfl _),
      (h c 0).trans ((dats m 0 c).arrAt_in 0 rfl _),
      (h c 3).trans ((dats m 0 c).arrAt_in 3 rfl _)⟩) (run_main m ρ)

end Cert.KernelIdeal.Body

end
-- ==== Proof.RefValue.lean ====
/-
  The reference program's result, read index by index, is the specification's scale-first arrangement
  `Gref`: at `(r, c)` the sum over `k` of `M (r, k) * (x (k, c) * W (0, c))`. With real entries that is the
  row-sum-first arrangement `G` (the law `G_eq_Gref`).
-/
import proofs.«126545_g68573447848481_cont_sun_c4_810_22_alg».proof.Defs
import proofs.«126545_g68573447848481_cont_sun_c4_810_22_alg».proof.Proof.Gen.ReferenceIdeal.Read
import proofs.«126545_g68573447848481_cont_sun_c4_810_22_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx

/-- The left operand's index of the contraction at `(i, k)` is `(i 0, k)`. -/
theorem lidx_eq (i : S10000x128.Idx) (k : Fin 10000) : lidx_main_v2 i k = ix2 (i 0) k :=
  funext fun a => Fin.ext (by match a with | ⟨0, _⟩ => rfl | ⟨1, _⟩ => rfl)

/-- The right operand's index of the contraction at `(i, k)` is `(k, i 1)`. -/
theorem ridx_eq (i : S10000x128.Idx) (k : Fin 10000) : ridx_main_v2 i k = ix2 k (i 1) :=
  funext fun a => Fin.ext (by match a with | ⟨0, _⟩ => rfl | ⟨1, _⟩ => rfl)

/-- The broadcast reads `W` at row `0` and the index's own column. -/
theorem bidx_eq (j : S10000x128.Idx) : idx_main_v0 j = ix2 (0 : Fin 1) (j 1) :=
  funext fun a => Fin.ext (by match a with | ⟨0, _⟩ => rfl | ⟨1, _⟩ => rfl)

/-- The reference's result is the scale-first arrangement of the specification. -/
theorem ref_eq (x0 : (⟨S10000x128, .f32⟩ : BufTy).Contents (Elt Ideal))
    (x1 : (⟨S10000x10000, .f32⟩ : BufTy).Contents (Elt Ideal))
    (x2 : (⟨S1x128, .f32⟩ : BufTy).Contents (Elt Ideal)) :
    Cert.ReferenceIdeal.Read.val_main_v2 (F := Ideal) x0 x1 x2 = Cert.GcnSpec.Gref x0 x1 x2 := by
  funext i
  rw [val_main_v2_apply, Cert.GcnSpec.Gref_apply]
  unfold Cert.GcnSpec.Grefat
  refine Finset.sum_congr rfl fun k _ => ?_
  rw [val_main_v1_apply, val_main_v0_apply, lidx_eq, ridx_eq, bidx_eq]
  rfl

/-- With real entries the reference's result is the specification. -/
theorem ref_eq_G (x0 : (⟨S10000x128, .f32⟩ : BufTy).Contents (Elt Ideal))
    (x1 : (⟨S10000x10000, .f32⟩ : BufTy).Contents (Elt Ideal))
    (x2 : (⟨S1x128, .f32⟩ : BufTy).Contents (Elt Ideal))
    (h0 : ∀ i, ∃ r : ℝ, x0 i = (r : EReal)) (h1 : ∀ i, ∃ r : ℝ, x1 i = (r : EReal))
    (h2 : ∀ i, ∃ r : ℝ, x2 i = (r : EReal)) :
    Cert.ReferenceIdeal.Read.val_main_v2 (F := Ideal) x0 x1 x2 = Cert.GcnSpec.G x0 x1 x2 :=
  (ref_eq x0 x1 x2).trans (Cert.GcnSpec.G_eq_Gref x0 x1 x2 h0 h1 h2).symm

end Cert.ReferenceIdeal.RefValue

end
-- ==== Proof.Finite.lean ====
/-
  The precondition, decoded: `finite_inputs` computes, as one bit, "every entry of each of the three arrays has
  absolute value below +∞". When that bit is 1 every entry is a real number: on the extended reals
  `max x (-x) < ⊤` excludes both `⊤` and `⊥`.
-/
import proofs.«126545_g68573447848481_cont_sun_c4_810_22_alg».proof.Defs
import proofs.«126545_g68573447848481_cont_sun_c4_810_22_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx Cert.Pre_finite_inputs

/-- The rank-0 shape has one index. -/
instance : Subsingleton S_.Idx := ⟨fun a b => funext fun d => d.elim0⟩

/-- The f32 pattern `0x7F800000` (exponent all ones, fraction zero, sign clear) denotes `+∞`. -/
theorem ofBits_inf : Ideal.ofBits .f32 0x7F800000#32 = (⊤ : EReal) := by
  simp [Ideal.ofBits, Ideal.ieee]

/-- An extended real whose absolute value is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One element of the compared array: the bit "`|a i| < +∞`" being 1 makes `a i` real. -/
theorem real_of_bit {s : Shape} (bc : S_.BroadcastsInDim s (![] : Fin 0 → Fin s.rank)) (a : FVec Ideal s .f32) (i : s.Idx)
    (h : cmpf .olt (Host.absf a) (broadcastInDim s ![] bc (constant (F := Ideal) S_ .f32 0x7F800000#32)) i = 1#1) :
    ∃ r : ℝ, a i = (r : EReal) := by
  have h' : BitVec.ofBool (decide (max (a i) (-(a i)) < Ideal.ofBits .f32 0x7F800000#32)) = 1#1 := h
  rw [ofBits_inf] at h'
  by_cases hlt : max (a i) (-(a i)) < (⊤ : EReal)
  · exact real_of_abs_lt_top _ hlt
  · rw [decide_eq_false hlt] at h'
    exact absurd h' (by decide)

/-- THE PRECONDITION READ BACK: every entry of the three arrays is a real number. -/
theorem real_of_pre [Cert.Pre_finite_inputs.Facts] (a0 : FVec Ideal Cert.Pre_finite_inputs.S10000x128 .f32)
    (a1 : FVec Ideal Cert.Pre_finite_inputs.S10000x10000 .f32) (a2 : FVec Ideal Cert.Pre_finite_inputs.S1x128 .f32)
    (h : Cert.Pre_finite_inputs.fn (F := Ideal) a0 a1 a2 = (fun _ => 1#1)) :
    (∀ i, ∃ r : ℝ, a0 i = (r : EReal)) ∧ (∀ i, ∃ r : ℝ, a1 i = (r : EReal)) ∧ (∀ i, ∃ r : ℝ, a2 i = (r : EReal)) := by
  have h1 := congrFun h ix0
  dsimp only [Cert.Pre_finite_inputs.fn] at h1
  obtain ⟨h12, h3⟩ := IntOp.andi_eq_one.1 h1
  obtain ⟨h1', h2'⟩ := IntOp.andi_eq_one.1 h12
  exact ⟨fun i => real_of_bit _ a0 i (Host.reduce_andi_all _ _ _ _ _ h1' i),
    fun i => real_of_bit _ a1 i (Host.reduce_andi_all _ _ _ _ _ h2' i),
    fun i => real_of_bit _ a2 i (Host.reduce_andi_all _ _ _ _ _ h3 i)⟩

end Cert.Finite

end
-- ==== Proof.lean ====
/-
  The claim for the graph-convolution layer  out = M · (x ∘ W)  (x : [10000,128], M : [10000,10000], W : [1,128]).

  The kernel walks M in 42 steps of two 120-row slabs, multiplies each slab by the whole of x on the matrix unit and
  scales column q of the product by W(0, q); the reference scales x first and multiplies once.  At the ideal
  instance both results are, entry by entry,

      kernel:     (∑ k, M(r, k) · x(k, q)) · W(0, q)
      reference:   ∑ k, M(r, k) · (x(k, q) · W(0, q)),

  equal because a real factor distributes over a finite sum of reals — which is where the precondition (every input
  entry finite, hence a real number) is used: on the extended reals the law fails at infinities.

  The pieces: the word-level kernel's frame (Proof/KernelFrame.lean, which says nothing about the result's
  contents); the idealized kernel's run with the result in closed form (Proof/KernelRun.lean and the modules under
  it); the reference's run, generated, read at an index (Proof/RefValue.lean); the law (Proof/Spec.lean); the
  precondition decoded (Proof/Finite.lean).  No operation was rewritten by the ideal pass, so the idealization
  claim has nothing to state.
-/
import proofs.«126545_g68573447848481_cont_sun_c4_810_22_alg».proof.Defs
import proofs.«126545_g68573447848481_cont_sun_c4_810_22_alg».proof.Proof.Gen.Kernel
import proofs.«126545_g68573447848481_cont_sun_c4_810_22_alg».proof.Proof.Gen.KernelIdeal
import proofs.«126545_g68573447848481_cont_sun_c4_810_22_alg».proof.Proof.Gen.ReferenceIdeal
import proofs.«126545_g68573447848481_cont_sun_c4_810_22_alg».proof.Proof.Gen.ReferenceIdeal.Run
import proofs.«126545_g68573447848481_cont_sun_c4_810_22_alg».proof.Proof.Gen.ReferenceIdeal.Read
import proofs.«126545_g68573447848481_cont_sun_c4_810_22_alg».proof.Proof.Gen.Pre_finite_inputs
import proofs.«126545_g68573447848481_cont_sun_c4_810_22_alg».proof.Proof.KernelFrame
import proofs.«126545_g68573447848481_cont_sun_c4_810_22_alg».proof.Proof.KernelRun
import proofs.«126545_g68573447848481_cont_sun_c4_810_22_alg».proof.Proof.RefValue
import proofs.«126545_g68573447848481_cont_sun_c4_810_22_alg».proof.Proof.Finite
import Idealize.ShloMosaic.Adequacy
import Idealize.ShloMosaic.Init

noncomputable section

namespace Cert.Proof

open Idealize.ShloMosaic Idealize.SL.Sem

/-- The word-level kernel runs to the end and leaves its arguments as they were. -/
theorem frame_kernel : Cert.frame_Kernel := Cert.Kernel.FrameProof.frame

/-- So does the idealized kernel: its run, the result's contents dropped. -/
theorem frame_kernelIdeal : Cert.frame_KernelIdeal := fun m ρ _ =>
  (θ_run Cert.KernelIdeal.defs _ _).mono (fun _ h c => ⟨(h c).2.1, (h c).2.2.1, (h c).2.2.2⟩)
    (Cert.KernelIdeal.Body.run m ρ)

/-- And the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments, all entries finite: both programs end with
    (∑ k, M(r, k) · x(k, q)) · W(0, q) in the result, the reference's sum of scaled products being that by
    distributivity over the reals. -/
theorem algebraic : Cert.algebraic_KernelIdeal_ReferenceIdeal := by
  intro m ρ m' ρ' hpre hagree
  refine ⟨fun c => Cert.KernelIdeal.Body.Gk m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Finite.real_of_pre _ _ _ (hpre c)
  rw [Cert.ReferenceIdeal.Read.val_main_v2_eq, (hagree c).1, (hagree c).2.1, (hagree c).2.2]
  exact Cert.ReferenceIdeal.RefValue.ref_eq_G _ _ _ h0 h1 h2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
